-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x500000 : Shape := ⟨2, ![2, 500000]⟩
abbrev S500000x256 : Shape := ⟨2, ![500000, 256]⟩
abbrev S1x256 : Shape := ⟨2, ![1, 256]⟩
abbrev S50000 : Shape := ⟨1, ![50000]⟩
abbrev S512x256 : Shape := ⟨2, ![512, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S500000x256 : S_.BroadcastsInDim S500000x256 (![] : Fin 0 → Fin S500000x256.rank)
  reducesTo_S500000x256_S_d0_1 : S500000x256.ReducesTo [0, 1] S_
  bcast_S_S1x256 : S_.BroadcastsInDim S1x256 (![] : Fin 0 → Fin S1x256.rank)
  reducesTo_S1x256_S_d0_1 : S1x256.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S256 .f32) (main_arg7 : FVec F S512x256 .f32) (main_arg8 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S512x256 .f32 := Host.absf main_arg7
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S50000x256 .f32) (main_arg1 : IVec S2x500000 32) (main_arg2 : FVec F S500000x256 .f32) (main_arg3 : FVec F S1x256 .f32) (main_arg4 : IVec S50000 32) (main_arg5 : FVec F S512x256 .f32) (main_arg6 : FVec F S256 .f32) (main_arg7 : FVec F S512x256 .f32) (main_arg8 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S500000x256 .f32 := Host.absf main_arg2
  let main_cst_0 : FVec F S_ .f32 := constant S_ .f32 0x7F800000#32
  let main_v5 : FVec F S500000x256 .f32 := broadcastInDim S500000x256 ![] bcast_S_S500000x256 main_cst_0
  let main_v6 : IVec S500000x256 1 := cmpf .olt main_v4 main_v5
  let main_c_1 : IVec S_ 1 := constantI S_ 1 1#1
  let main_v7 : IVec S_ 1 := (fun x v => Host.reduce IntOp.andi x v reducesTo_S500000x256_S_d0_1 h_S_) main_v6 main_c_1
  let main_v8 : IVec S_ 1 := andi main_v3 main_v7
  let main_v9 : FVec F S1x256 .f32 := Host.absf main_arg3
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S512x256 .f32 := Host.absf main_arg5
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg6 main_arg7 main_arg8 main_v13 main_v16
-- ==== Kernel.lean ====
abbrev S50000x256 : Shape := ⟨2, ![50000, 256]⟩
abbrev S2x500000 : Shape := ⟨2, ![2, 500000]⟩
abbrev S500000x256 : Shape := ⟨2, ![500000, 256]⟩
abbrev S1x256 : Shape := ⟨2, ![1, 256]⟩
abbrev S50000 : Shape := ⟨1, ![50000]⟩
abbrev S512x256 : Shape := ⟨2, ![512, 256]⟩
abbrev S256 : Shape := ⟨1, ![256]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S256x256 : Shape := ⟨2, ![256, 256]⟩
abbrev S2000x256 : Shape := ⟨2, ![2000, 256]⟩
abbrev S50000x1 : Shape := ⟨2, ![50000, 1]⟩

abbrev nBuf : Space → Nat
  | .hbm => 46
  | .vmem => 18
  | .smem => 0
  | _ => 0

abbrev bufTy : (tb : Table) → Fin (tcTables nBuf tb) → BufTy
  | .hbm, ⟨0, _⟩ => ⟨S50000x256, .f32⟩
  | .hbm, ⟨1, _⟩ => ⟨S2x500000, .i32⟩
  | .hbm, ⟨2, _⟩ => ⟨S500000x256, .f32⟩
  | .hbm, ⟨3, _⟩ => ⟨S1x256, .f32⟩
  | .hbm, ⟨4, _⟩ => ⟨S50000, .i32⟩
  | .hbm, ⟨5, _⟩ => ⟨S512x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S1x500000, .i32⟩
  | .hbm, ⟨10, _⟩ => ⟨S500000, .i32⟩
  | .hbm, ⟨11, _⟩ => ⟨S1x500000, .i32⟩
  | .hbm, ⟨12, _⟩ => ⟨S500000, .i32⟩
  | .hbm, ⟨13, _⟩ => ⟨S_, .i32⟩
  | .hbm, ⟨14, _⟩ => ⟨S500000, .i32⟩
  | .hbm, ⟨15, _⟩ => ⟨S500000, .i1⟩
  | .hbm, ⟨16, _⟩ => ⟨S_, .i32⟩
  | .hbm, ⟨17, _⟩ => ⟨S500000, .i32⟩
  | .hbm, ⟨18, _⟩ => ⟨S500000, .i32⟩
  | .hbm, ⟨19, _⟩ => ⟨S500000, .i32⟩
  | .hbm, ⟨20, _⟩ => ⟨S500000x1, .i32⟩
  | .hbm, ⟨21, _⟩ => ⟨S500000x256, .f32⟩
  | .hbm, ⟨22, _⟩ => ⟨S256x256, .f32⟩
  | .hbm, ⟨23, _⟩ => ⟨S256x256, .f32⟩
  | .hbm, ⟨24, _⟩ => ⟨S1x256, .f32⟩
  | .hbm, ⟨25, _⟩ => ⟨S500000x256, .f32⟩
  | .hbm, ⟨26, _⟩ => ⟨S_, .f32⟩
  | .hbm, ⟨27, _⟩ => ⟨S50000x256, .f32⟩
  | .hbm, ⟨28, _⟩ => ⟨S500000x1, .i32⟩
  | .hbm, ⟨29, _⟩ => ⟨S50000x256, .f32⟩
  | .hbm, ⟨30, _⟩ => ⟨S_, .f32⟩
  | .hbm, ⟨31, _⟩ => ⟨S500000, .f32⟩
  | .hbm, ⟨32, _⟩ => ⟨S_, .f32⟩
  | .hbm, ⟨33, _⟩ => ⟨S50000, .f32⟩
  | .hbm, ⟨34, _⟩ => ⟨S500000x1, .i32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x256, .f32⟩
  | .hbm, ⟨41, _⟩ => ⟨S50000x256, .f32⟩
  | .hbm, ⟨42, _⟩ => ⟨S256x256, .f32⟩
  | .hbm, ⟨43, _⟩ => ⟨S256x256, .f32⟩
  | .hbm, ⟨44, _⟩ => ⟨S1x256, .f32⟩
  | .hbm, ⟨45, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S256x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  slices_S512x256_S256x256_0_0 : S512x256.Slices ![0, 0] S256x256
  slices_S512x256_S256x256_256_0 : S512x256.Slices ![256, 0] S256x256
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  gather_S50000x256_S500000x1_S500000x256_1_0_n_n_0_1_1256_wf : GatherDims.WF S50000x256 S500000x1 S500000x256 [1] [0] [] [0] [] 1 ![1, 256]
  dot_S2000x256_S256x256_S2000x256_1_0_0_1_n_n_wf : DotDims.WF S2000x256 S256x256 S2000x256 [1] [0] [0] [1] [] []
  scatter_S50000x256_S500000x1_S500000x256_1_0_0_1_wf : ScatterDims.WF S50000x256 S500000x1 S500000x256 [1] [0] [0] 1
  scatter_S50000_S500000x1_S500000_n_0_0_1_wf : ScatterDims.WF S50000 S500000x1 S500000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S500000x256.size a
  hwx0_0 : ∀ i : grid0.Coords, EltTy.bits .f32 = 32 ∨ (Rect.block (s := S500000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S500000x256.size a
  hwx0_1 : ∀ i : grid0.Coords, EltTy.bits .f32 = 32 ∨ (Rect.block (s := S500000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S500000x256.size a
  hwx0_5 : ∀ i : grid0.Coords, EltTy.bits .f32 = 32 ∨ (Rect.block (s := S500000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)

variable [Facts₀]

def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf

abbrev win0_0 : Pipeline.Window sig grid0 :=
  Pipeline.Window.ofSpec (Memref.whole main_v10) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x500000 : Shape := ⟨2, ![2, 500000]⟩
abbrev S500000x256 : Shape := ⟨2, ![500000, 256]⟩
abbrev S1x256 : Shape := ⟨2, ![1, 256]⟩
abbrev S50000 : Shape := ⟨1, ![50000]⟩
abbrev S512x256 : Shape := ⟨2, ![512, 256]⟩
abbrev S256 : Shape := ⟨1, ![256]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x512 : Shape := ⟨2, ![500000, 512]⟩
abbrev S50000x1 : Shape := ⟨2, ![50000, 1]⟩
abbrev S50000x512 : Shape := ⟨2, ![50000, 512]⟩

abbrev nBuf : Space → Nat
  | .hbm => 54
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x500000, .i32⟩
  | .hbm, ⟨2, _⟩ => ⟨S500000x256, .f32⟩
  | .hbm, ⟨3, _⟩ => ⟨S1x256, .f32⟩
  | .hbm, ⟨4, _⟩ => ⟨S50000, .i32⟩
  | .hbm, ⟨5, _⟩ => ⟨S512x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S1x500000, .i32⟩
  | .hbm, ⟨10, _⟩ => ⟨S500000, .i32⟩
  | .hbm, ⟨11, _⟩ => ⟨S1x500000, .i32⟩
  | .hbm, ⟨12, _⟩ => ⟨S500000, .i32⟩
  | .hbm, ⟨13, _⟩ => ⟨S_, .i32⟩
  | .hbm, ⟨14, _⟩ => ⟨S500000, .i32⟩
  | .hbm, ⟨15, _⟩ => ⟨S500000, .i1⟩
  | .hbm, ⟨16, _⟩ => ⟨S_, .i32⟩
  | .hbm, ⟨17, _⟩ => ⟨S500000, .i32⟩
  | .hbm, ⟨18, _⟩ => ⟨S500000, .i32⟩
  | .hbm, ⟨19, _⟩ => ⟨S500000, .i32⟩
  | .hbm, ⟨20, _⟩ => ⟨S500000x1, .i32⟩
  | .hbm, ⟨21, _⟩ => ⟨S500000x256, .f32⟩
  | .hbm, ⟨22, _⟩ => ⟨S500000x512, .f32⟩
  | .hbm, ⟨23, _⟩ => ⟨S500000x256, .f32⟩
  | .hbm, ⟨24, _⟩ => ⟨S1x256, .f32⟩
  | .hbm, ⟨25, _⟩ => ⟨S500000x256, .f32⟩
  | .hbm, ⟨26, _⟩ => ⟨S500000x256, .f32⟩
  | .hbm, ⟨27, _⟩ => ⟨S_, .f32⟩
  | .hbm, ⟨28, _⟩ => ⟨S500000x256, .f32⟩
  | .hbm, ⟨29, _⟩ => ⟨S500000x256, .f32⟩
  | .hbm, ⟨30, _⟩ => ⟨S_, .f32⟩
  | .hbm, ⟨31, _⟩ => ⟨S50000x256, .f32⟩
  | .hbm, ⟨32, _⟩ => ⟨S500000x1, .i32⟩
  | .hbm, ⟨33, _⟩ => ⟨S50000x256, .f32⟩
  | .hbm, ⟨34, _⟩ => ⟨S_, .f32⟩
  | .hbm, ⟨35, _⟩ => ⟨S500000, .f32⟩
  | .hbm, ⟨36, _⟩ => ⟨S_, .f32⟩
  | .hbm, ⟨37, _⟩ => ⟨S50000, .f32⟩
  | .hbm, ⟨38, _⟩ => ⟨S500000x1, .i32⟩
  | .hbm, ⟨39, _⟩ => ⟨S50000, .f32⟩
  | .hbm, ⟨40, _⟩ => ⟨S_, .f32⟩
  | .hbm, ⟨41, _⟩ => ⟨S50000, .f32⟩
  | .hbm, ⟨42, _⟩ => ⟨S50000, .f32⟩
  | .hbm, ⟨43, _⟩ => ⟨S50000x1, .f32⟩
  | .hbm, ⟨44, _⟩ => ⟨S50000x256, .f32⟩
  | .hbm, ⟨45, _⟩ => ⟨S50000x256, .f32⟩
  | .hbm, ⟨46, _⟩ => ⟨S50000x512, .f32⟩
  | .hbm, ⟨47, _⟩ => ⟨S50000x256, .f32⟩
  | .hbm, ⟨48, _⟩ => ⟨S1x256, .f32⟩
  | .hbm, ⟨49, _⟩ => ⟨S50000x256, .f32⟩
  | .hbm, ⟨50, _⟩ => ⟨S50000x256, .f32⟩
  | .hbm, ⟨51, _⟩ => ⟨S_, .f32⟩
  | .hbm, ⟨52, _⟩ => ⟨S50000x256, .f32⟩
  | .hbm, ⟨53, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_cst : Ref sig .tc := ⟨.hbm, 27, rfl⟩
abbrev main_call0_v0 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call1_cst : Ref sig .tc := ⟨.hbm, 51, rfl⟩
abbrev main_call1_v0 : Ref sig .tc := ⟨.hbm, 52, rfl⟩
abbrev main_v34 : Ref sig .tc := ⟨.hbm, 53, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x256_S500000x256_S500000x512_d1 : Shape.Concatenates [S500000x256, S500000x256] S500000x512 1
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  concatenates_S50000x256_S50000x256_S50000x512_d1 : Shape.Concatenates [S50000x256, S50000x256] S50000x512 1
  bcast_S1x256_S50000x256_0_1 : S1x256.BroadcastsInDim S50000x256 (![0, 1] : Fin 2 → Fin S50000x256.rank)
  gather_S50000x256_S500000x1_S500000x256_1_0_n_n_0_1_1256_wf : GatherDims.WF S50000x256 S500000x1 S500000x256 [1] [0] [] [0] [] 1 ![1, 256]
  dot_S500000x512_S512x256_S500000x256_1_0_0_1_n_n_wf : DotDims.WF S500000x512 S512x256 S500000x256 [1] [0] [0] [1] [] []
  scatter_S50000x256_S500000x1_S500000x256_1_0_0_1_wf : ScatterDims.WF S50000x256 S500000x1 S500000x256 [1] [0] [0] 1
  scatter_S50000_S500000x1_S500000_n_0_0_1_wf : ScatterDims.WF S50000 S500000x1 S500000 [] [0] [0] 1
  dot_S50000x512_S512x256_S50000x256_1_0_0_1_n_n_wf : DotDims.WF S50000x512 S512x256 S50000x256 [1] [0] [0] [1] [] []

variable [Facts₀]

def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def dot_S500000x512_S512x256_S500000x256_1_0_0_1_n_n : DotDims S500000x512 S512x256 S500000x256 where
  lhsContracting := [1]
  rhsContracting := [0]
  lhsNonContracting := [0]
  rhsNonContracting := [1]
  lhsBatch := []
  rhsBatch := []
  wf := dot_S500000x512_S512x256_S500000x256_1_0_0_1_n_n_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf

class Facts : Prop extends Facts₀ where

variable [Facts]
-- ==== Proof.KernelRun.lean ====
/-
  The idealized kernel program's run with its result array named.

  The program is four segments: host operations, the first tiled kernel, host operations, the second tiled kernel.
  The contents of every buffer at each segment boundary are a fold from the launch memory: a stretch of host
  operations rewrites the buffers it assigns, a tiled kernel rewrites its output array with what its grid points
  write back and leaves every other buffer alone. Every weakly fair execution terminates in a state whose unscoped
  buffers hold the last boundary's contents; read at the result buffer this names the result, and read at an
  argument it gives back the launch contents.
-/
import proofs.«133268_j17806934409781_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, in a state whose every unscoped
    buffer holds the last boundary's contents. -/
theorem run_last_boundary : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run read at the result buffer and at each argument: the result ends at the last boundary's contents,
    and no host operation and no kernel writes an argument, so each argument ends as launched. -/
theorem run_named : θ_run defs (onTc (τ := τ) (main (F := F))) ⟨m, fun _ => 0, ρ⟩ (fun r => ∀ c : Dev nD,
      r.2.mem ((c.tc : Thread nD τ).loc main_v30) = W4 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨h c _ (mem_uc main_v30 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)
    (run_last_boundary m ρ)

end Cert.KernelIdeal.Hand

end
-- ==== Proof.LibPlainDot.lean ====
/-
  A matrix product whose dimension numbers are the plain ones — rows by one contracted axis times that axis by
  columns, no batch axis — read at an output index (r, c): the sum over the contracted coordinate k of
  left (r, k) times right (k, c). Stated for any dimension record with those axis lists, so that a kernel's
  tile product and a host's whole product are both this one sum over `Fin K`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The contraction sum of a plain product is the sum over the one contracted coordinate. -/
theorem contr_sum (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have h1 : d.lhsContracting = [1] := by rw [← hd]
  have h2 : d.rhsContracting = [0] := by rw [← hd]
  have hr : d.contr.rank = 1 := by rw [← hd]; rfl
  have hs : d.contr.size ⟨0, by omega⟩ = K := by subst hd; rfl
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ =>
      subst hd
      unfold DotDims.lhsIdx
      rw [dif_neg (by exact List.not_mem_nil), dif_pos (by exact List.mem_singleton.mpr rfl)]
      rfl
    | ⟨1, _⟩ => exact (d.lhsIdx_val_of_single h1 j _).trans hk)
  have er : d.rhsIdx j ((contrEquiv1 d K hr hs).symm k) = ix2 k (j 1) := funext fun a => Fin.ext (by
    match a with
    | ⟨0, _⟩ => exact (d.rhsIdx_val_of_single h2 j _).trans hk
    | ⟨1, _⟩ =>
      subst hd
      unfold DotDims.rhsIdx
      rw [dif_neg (by exact List.not_mem_nil), dif_pos (by exact List.mem_singleton.mpr rfl)]
      rfl)
  exact congrArg₂ (· * ·) (congrArg l el) (congrArg r er)

/-- A host product with plain dimension numbers, at the exact reals, read at an index. -/
theorem dotGeneral_plain {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral d prec sched l r j = ∑ k : Fin K, l (ix2 (j 0) k) * r (ix2 k (j 1)) :=
  (Ideal.dotGeneral_apply d prec sched l r j).trans (contr_sum d h1 h2 h3 h4 h5 h6 l r j)

/-- A tile product into the zero accumulator with plain dimension numbers, at the exact reals, read at an index. -/
theorem matmul_zero_plain {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (j : (⟨2, ![M, N]⟩ : Shape).Idx) :
    FloatOps.matmul d prec l r (constant (F := Ideal) ⟨2, ![M, N]⟩ .f32 0x00000000#32) j
      = ∑ k : Fin K, l (ix2 (j 0) k) * r (ix2 k (j 1)) :=
  (Ideal.matmul_constant_zero_apply d prec l r j).trans (contr_sum d h1 h2 h3 h4 h5 h6 l r j)

end Idealize.ShloMosaic.PlainDot

end
-- ==== Proof.LayerSpec.lean ====
/-
  One layer of the network, index by index, on the extended reals.

  Both layers of the network have the same shape: two row-indexed arrays `a` and `b` with 256 columns each are
  joined side by side, multiplied by a 512 × 256 weight array, a bias row is added and the result is clamped
  below at zero. Read at row `r` and column `c` this is

      max ((∑ k < 256, a (r, k) · W (k, c)) + (∑ k < 256, b (r, k) · W (256 + k, c)) + bias c) 0.

  `layer` is that function, stated over the two halves of the weight array and the bias as a one-row array.
  `host_layer` says the form with a concatenation and ONE product over 512 contracted coordinates is the same
  function: a sum over 512 coordinates is the sum over the first 256 plus the sum over the last 256, which needs
  only that addition on the extended reals is commutative and associative, and on each half the concatenation
  reads one of its two pieces.
-/
import Idealize.ShloMosaic.PureOps.Ideal.Laws
import Idealize.ShloMosaic.Lib.ValueIdx
import Idealize.ShloMosaic.Lib.Pipeline.Value
import proofs.«133268_j17806934409781_2_alg».proof.Proof.LibPlainDot

noncomputable section

open scoped BigOperators

namespace Cert.Layer

open Idealize.ShloMosaic Idealize.ShloMosaic.ValueIdx

/-- A sum over 512 coordinates is the sum over the first 256 plus the sum over the last 256. -/
theorem sum_halves {M : Type*} [AddCommMonoid M] (f : Fin 512 → M) :
    ∑ k : Fin 512, f k
      = ∑ k : Fin 256, f ⟨k.val, by omega⟩ + ∑ k : Fin 256, f ⟨256 + k.val, by omega⟩ :=
  Fin.sum_univ_add (show Fin (256 + 256) → M from f)

/-- One layer at row `j 0` and column `j 1`: the two products over 256 contracted coordinates added, the bias
    of the column added, the result clamped below at zero. -/
def layer {R : Nat} (a b : FVec Ideal ⟨2, ![R, 256]⟩ .f32) (wa wb : FVec Ideal ⟨2, ![256, 256]⟩ .f32)
    (bias : FVec Ideal ⟨2, ![1, 256]⟩ .f32) : FVec Ideal ⟨2, ![R, 256]⟩ .f32 :=
  fun j => max (((∑ k : Fin 256, a (ix2 (j 0) k) * wa (ix2 k (j 1)))
      + (∑ k : Fin 256, b (ix2 (j 0) k) * wb (ix2 k (j 1)))) + bias (ix2 (0 : Fin 1) (j 1)))
    (Ideal.ofBits .f32 0x00000000#32)

/-- The layer read at row `r` and column `c`. -/
theorem layer_apply {R : Nat} (a b : FVec Ideal ⟨2, ![R, 256]⟩ .f32) (wa wb : FVec Ideal ⟨2, ![256, 256]⟩ .f32)
    (bias : FVec Ideal ⟨2, ![1, 256]⟩ .f32) (r : Fin R) (c : Fin 256) :
    layer a b wa wb bias (ix2 r c)
      = max (((∑ k : Fin 256, a (ix2 r k) * wa (ix2 k c)) + (∑ k : Fin 256, b (ix2 r k) * wb (ix2 k c)))
          + bias (ix2 (0 : Fin 1) c)) (Ideal.ofBits .f32 0x00000000#32) := rfl

/-- The same layer written with a concatenation and one product over 512 contracted coordinates, the bias
    broadcast from a vector, and the clamp as a maximum with a broadcast zero. -/
theorem host_layer {R : Nat}
    (d : DotDims ⟨2, ![R, 512]⟩ ⟨2, ![512, 256]⟩ ⟨2, ![R, 256]⟩)
    (h1 : d.lhsContracting = [1]) (h2 : d.rhsContracting = [0]) (h3 : d.lhsNonContracting = [0])
    (h4 : d.rhsNonContracting = [1]) (h5 : d.lhsBatch = []) (h6 : d.rhsBatch = [])
    (hc : Shape.Concatenates [(⟨2, ![R, 256]⟩ : Shape), (⟨2, ![R, 256]⟩ : Shape)] ⟨2, ![R, 512]⟩ (1 : Fin 2))
    (hb1 : (⟨1, ![256]⟩ : Shape).BroadcastsInDim ⟨2, ![1, 256]⟩ (![1] : Fin 1 → Fin 2))
    (hb2 : (⟨2, ![1, 256]⟩ : Shape).BroadcastsInDim ⟨2, ![R, 256]⟩ (![0, 1] : Fin 2 → Fin 2))
    (hb0 : (⟨0, ![]⟩ : Shape).BroadcastsInDim ⟨2, ![R, 256]⟩ (![] : Fin 0 → Fin 2))
    (hs0 : (⟨2, ![512, 256]⟩ : Shape).Slices ![0, 0] ⟨2, ![256, 256]⟩)
    (hs1 : (⟨2, ![512, 256]⟩ : Shape).Slices ![256, 0] ⟨2, ![256, 256]⟩)
    (hr : (⟨1, ![256]⟩ : Shape).ShapeCasts ⟨2, ![1, 256]⟩)
    (a b : FVec Ideal ⟨2, ![R, 256]⟩ .f32) (W : FVec Ideal ⟨2, ![512, 256]⟩ .f32) (bias : FVec Ideal ⟨1, ![256]⟩ .f32) :
    maximumf (addf (Host.dotGeneral d none
          (concatenate (⟨2, ![R, 512]⟩ : Shape) (1 : Fin 2) [⟨(⟨2, ![R, 256]⟩ : Shape), a⟩, ⟨(⟨2, ![R, 256]⟩ : Shape), b⟩] hc) W)
        (broadcastInDim (⟨2, ![R, 256]⟩ : Shape) ![0, 1] hb2 (broadcastInDim (⟨2, ![1, 256]⟩ : Shape) ![1] hb1 bias)))
      (broadcastInDim (⟨2, ![R, 256]⟩ : Shape) ![] hb0 (constant (F := Ideal) ⟨0, ![]⟩ .f32 0x00000000#32))
    = layer a b (extractStridedSlice ⟨2, ![256, 256]⟩ ![0, 0] W hs0) (extractStridedSlice ⟨2, ![256, 256]⟩ ![256, 0] W hs1)
        (shapeCast ⟨2, ![1, 256]⟩ bias hr) := by
  funext j
  obtain ⟨r, c, rfl⟩ : ∃ (r : Fin R) (c : Fin 256), j = ix2 r c := ⟨j 0, j 1, eq_ix2 j⟩
  rw [layer_apply, maximumf_apply, addf_apply]
  -- the clamp's zero
  have hz : broadcastInDim (⟨2, ![R, 256]⟩ : Shape) ![] hb0 (constant (F := Ideal) ⟨0, ![]⟩ .f32 0x00000000#32) (ix2 r c)
      = Ideal.ofBits .f32 0x00000000#32 :=
    broadcastInDim_apply _ hb0 _ (ix2 r c) ix0 (fun a => a.elim0)
  -- the bias of the column
  have hbias : broadcastInDim (⟨2, ![R, 256]⟩ : Shape) ![0, 1] hb2 (broadcastInDim (⟨2, ![1, 256]⟩ : Shape) ![1] hb1 bias) (ix2 r c)
      = shapeCast ⟨2, ![1, 256]⟩ bias hr (ix2 (0 : Fin 1) c) := by
    refine (broadcastInDim_apply _ hb2 _ (ix2 r c) (ix2 (0 : Fin 1) c) (fun a => ?_)).trans ?_
    · match a with
      | ⟨0, _⟩ => rfl
      | ⟨1, _⟩ => rfl
    refine (broadcastInDim_apply _ hb1 _ (ix2 (0 : Fin 1) c) (ix1 c) (fun a => ?_)).trans ?_
    · match a with
      | ⟨0, _⟩ => rfl
    refine (shapeCast_apply bias hr (ix2 (0 : Fin 1) c) (ix1 c) ?_).symm
    rw [Shape.rowMajor_val_two, Shape.rowMajor_val_one]
    show c.val = 0 * 256 + c.val
    omega
  -- the product over 512 coordinates, split in halves
  have hdot : Host.dotGeneral d none
        (concatenate (⟨2, ![R, 512]⟩ : Shape) (1 : Fin 2) [⟨(⟨2, ![R, 256]⟩ : Shape), a⟩, ⟨(⟨2, ![R, 256]⟩ : Shape), b⟩] hc) W (ix2 r c)
      = (∑ k : Fin 256, a (ix2 r k) * extractStridedSlice ⟨2, ![256, 256]⟩ ![0, 0] W hs0 (ix2 k c))
        + (∑ k : Fin 256, b (ix2 r k) * extractStridedSlice ⟨2, ![256, 256]⟩ ![256, 0] W hs1 (ix2 k c)) := by
    refine (PlainDot.dotGeneral_plain d h1 h2 h3 h4 h5 h6 none .single _ W (ix2 r c)).trans ?_
    rw [sum_halves]
    refine congrArg₂ (· + ·) (Finset.sum_congr rfl fun k _ => ?_) (Finset.sum_congr rfl fun k _ => ?_)
    · refine congrArg₂ (· * ·) ?_ ?_
      · refine concatenate_pair_apply_left (t := ⟨2, ![R, 512]⟩) (1 : Fin 2) a b hc (ix2 r ⟨k.val, by omega⟩) rfl (ix2 r k) (fun q => ?_)
        match q with
        | ⟨0, _⟩ => rfl
        | ⟨1, _⟩ => rfl
      · refine (extractStridedSlice_apply ![0, 0] W hs0 (ix2 k c) _ (fun q => ?_)).symm
        match q with
        | ⟨0, _⟩ => show k.val = 0 + k.val; omega
        | ⟨1, _⟩ => show c.val = 0 + c.val; omega
    · refine congrArg₂ (· * ·) ?_ ?_
      · refine concatenate_pair_apply_right (t := ⟨2, ![R, 512]⟩) (1 : Fin 2) a b hc (ix2 r ⟨256 + k.val, by omega⟩) rfl rfl (ix2 r k) (fun q hq => ?_) ?_
        · match q with
          | ⟨0, _⟩ => rfl
          | ⟨1, _⟩ => exact absurd rfl hq
        · show k.val + 256 = 256 + k.val
          omega
      · refine (extractStridedSlice_apply ![256, 0] W hs1 (ix2 k c) _ (fun q => ?_)).symm
        match q with
        | ⟨0, _⟩ => show 256 + k.val = 256 + k.val; rfl
        | ⟨1, _⟩ => show c.val = 0 + c.val; omega
  rw [hz, hbias, hdot]

end Cert.Layer

end
-- ==== Proof.TileBody.lean ====
/-
  What each kernel body computes on one tile of 2000 rows: the layer of LayerSpec at 2000 rows.

  Each body loads a 2000 × 256 tile of each of its two row-indexed operands, the two 256 × 256 halves of the weight
  array and the bias row, rounds the matrix operands to the narrower float format (the identity on the extended
  reals), multiplies each tile by its half of the weights into a zero accumulator, adds the two products, adds the
  bias row broadcast down the rows, and clamps below at zero. A product into a zero accumulator read at (r, c) is the
  sum over the 256 contracted coordinates of left (r, k) · right (k, c); a shape change to the same shape is the
  identity; the broadcast bias row read at (r, c) is the row's entry at column c.
-/
import proofs.«133268_j17806934409781_2_alg».proof.Proof.Gen.KernelIdeal.Skeleton
import proofs.«133268_j17806934409781_2_alg».proof.Proof.LayerSpec

noncomputable section

open scoped BigOperators

namespace Cert.KernelIdeal.Tile

open Idealize.ShloMosaic Idealize.ShloMosaic.ValueIdx Cert.KernelIdeal Cert.KernelIdeal.Gen

/-- The bias row broadcast down 2000 rows, read at (r, c), is the row's entry at column c. -/
theorem bias_rows (x4 : FVec Ideal S1x256 .f32) (h : S1x256.Broadcasts S2000x256) (r : Fin 2000) (c : Fin 256) :
    broadcastTo S2000x256 x4 h (ix2 r c) = x4 (ix2 (0 : Fin 1) c) :=
  broadcastTo_apply x4 h (ix2 r c) (ix2 (0 : Fin 1) c) (fun a => by
    match a with
    | ⟨0, _⟩ => rfl
    | ⟨1, _⟩ => rfl)

/-- A tile product into the zero accumulator, of operands rounded to the narrower format, read at (r, c). -/
theorem tile_product (x : FVec Ideal S2000x256 .f32) (w : FVec Ideal S256x256 .f32)
    (hb : FTy.bits .bf16 < FTy.bits .f32) (r : Fin 2000) (c : Fin 256) :
    matmul dot_S2000x256_S256x256_S2000x256_1_0_0_1_n_n none (truncf .bf16 x hb) (truncf .bf16 w hb)
        (constant (F := Ideal) S2000x256 .f32 0x00000000#32) (ix2 r c)
      = ∑ k : Fin 256, x (ix2 r k) * w (ix2 k c) :=
  PlainDot.matmul_zero_plain dot_S2000x256_S256x256_S2000x256_1_0_0_1_n_n rfl rfl rfl rfl rfl rfl none
    (truncf .bf16 x hb) (truncf .bf16 w hb) (ix2 r c)

/-- The first kernel's stored value is the layer of its five loaded tiles. -/
theorem k0_pay1_eq (x0 x1 : Vec Ideal S2000x256 .f32) (x2 x3 : Vec Ideal S256x256 .f32) (x4 : Vec Ideal S1x256 .f32) :
    k0_pay1 (F := Ideal) x0 x1 x2 x3 x4 = Cert.Layer.layer (R := 2000) x0 x1 x2 x3 x4 := by
  funext j
  obtain ⟨r, c, rfl⟩ : ∃ (r : Fin 2000) (c : Fin 256), j = ix2 r c := ⟨j 0, j 1, eq_ix2 j⟩
  refine Eq.trans ?_ (Cert.Layer.layer_apply (R := 2000) x0 x1 x2 x3 x4 r c).symm
  show maximumf (addf (addf
        (matmul dot_S2000x256_S256x256_S2000x256_1_0_0_1_n_n none
          (truncf .bf16 (shapeCast S2000x256 x0 _) _) (truncf .bf16 (shapeCast S256x256 x2 _) _) (constant (F := Ideal) S2000x256 .f32 0x00000000#32))
        (matmul dot_S2000x256_S256x256_S2000x256_1_0_0_1_n_n none
          (truncf .bf16 x1 _) (truncf .bf16 (shapeCast S256x256 x3 _) _) (constant (F := Ideal) S2000x256 .f32 0x00000000#32)))
      (broadcastTo S2000x256 (shapeCast S1x256 x4 _) _)) (broadcast S2000x256 (Scalar.ofBits (F := Ideal) .f32 0x00000000#32)) (ix2 r c) = _
  rw [shapeCast_self, shapeCast_self, shapeCast_self, shapeCast_self]
  rw [maximumf_apply, addf_apply, addf_apply, tile_product, tile_product, bias_rows]
  rfl

/-- The second kernel's stored value is the layer of its five loaded tiles. -/
theorem k1_pay1_eq (x0 x1 : Vec Ideal S2000x256 .f32) (x2 x3 : Vec Ideal S256x256 .f32) (x4 : Vec Ideal S1x256 .f32) :
    k1_pay1 (F := Ideal) x0 x1 x2 x3 x4 = Cert.Layer.layer (R := 2000) x0 x1 x2 x3 x4 := by
  funext j
  obtain ⟨r, c, rfl⟩ : ∃ (r : Fin 2000) (c : Fin 256), j = ix2 r c := ⟨j 0, j 1, eq_ix2 j⟩
  refine Eq.trans ?_ (Cert.Layer.layer_apply (R := 2000) x0 x1 x2 x3 x4 r c).symm
  show maximumf (addf (addf
        (matmul dot_S2000x256_S256x256_S2000x256_1_0_0_1_n_n none
          (truncf .bf16 x0 _) (truncf .bf16 (shapeCast S256x256 x2 _) _) (constant (F := Ideal) S2000x256 .f32 0x00000000#32))
        (matmul dot_S2000x256_S256x256_S2000x256_1_0_0_1_n_n none
          (truncf .bf16 (shapeCast S2000x256 x1 _) _) (truncf .bf16 (shapeCast S256x256 x3 _) _) (constant (F := Ideal) S2000x256 .f32 0x00000000#32)))
      (broadcastTo S2000x256 (shapeCast S1x256 x4 _) _)) (broadcast S2000x256 (Scalar.ofBits (F := Ideal) .f32 0x00000000#32)) (ix2 r c) = _
  rw [shapeCast_self, shapeCast_self, shapeCast_self, shapeCast_self]
  rw [maximumf_apply, addf_apply, addf_apply, tile_product, tile_product, bias_rows]
  rfl

end Cert.KernelIdeal.Tile

end
-- ==== Proof.EdgeBlocks.lean ====
/-
  The first tiled kernel's output array after its run, as one function of the arrays the kernel finds on entry.

  The grid has 250 points. Point t reads rows 2000·t … 2000·t + 1999 of its two row-indexed operands, the whole of each
  half of the weight array and the whole bias row, and writes back rows 2000·t … 2000·t + 1999 of the output. What
  it writes back is the layer of LayerSpec on those tiles (TileBody), and the layer's entry at a row depends only on
  that row of the operands, so the tile written back is the same rows of the layer of the whole arrays. The 250
  row ranges cover all 500000 rows (row i lies in the range of point i / 2000), so the output array ends holding the
  layer of the whole arrays.
-/
import proofs.«133268_j17806934409781_2_alg».proof.Proof.Gen.KernelIdeal.Frame
import proofs.«133268_j17806934409781_2_alg».proof.Proof.TileBody
import Idealize.ShloMosaic.Lib.Pipeline.Value

set_option maxRecDepth 16384

noncomputable section

open scoped BigOperators

namespace Cert.KernelIdeal.Edge

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the row-indexed windows and the output are at block row t and
    block column 0, the weights and the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The output array's contents after the run: the layer of the whole arrays the kernel finds on entry. -/
abbrev whole (c : Dev nD) : FVec Ideal S500000x256 .f32 :=
  Cert.Layer.layer (R := 500000) (V c main_v10 : FVec Ideal S500000x256 .f32) (V c main_arg2 : FVec Ideal S500000x256 .f32)
    (V c main_v11 : FVec Ideal S256x256 .f32) (V c main_v12 : FVec Ideal S256x256 .f32) (V c main_v13 : FVec Ideal S1x256 .f32)

/-- Row p of the first operand's tile at point t is row 2000·t + p of the array. -/
theorem rows_a (c : Dev nD) (t : Fin cfg0.N) (p : Fin 2000) (k : Fin 256) (hP : t.val * 2000 + p.val < 500000) :
    (iblk0 V c 0 t : FVec Ideal S2000x256 .f32) (ix2 p k)
      = (V c main_v10 : FVec Ideal S500000x256 .f32) (ix2 (⟨t.val * 2000 + p.val, hP⟩ : Fin 500000) k) := by
  obtain ⟨e0, e1, -⟩ := idx_facts t
  unfold iblk0
  rw [View.read_apply]
  show V c main_v10 (((cfg0.win 0).blk t).view.emb (ix2 p k)) = V c main_v10 (ix2 (⟨t.val * 2000 + p.val, hP⟩ : Fin 500000) k)
  refine congrArg _ (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 256 + 1 * k.val = k.val; rw [e1]; omega

/-- Row p of the second operand's tile at point t is row 2000·t + p of the array. -/
theorem rows_b (c : Dev nD) (t : Fin cfg0.N) (p : Fin 2000) (k : Fin 256) (hP : t.val * 2000 + p.val < 500000) :
    (iblk0 V c 1 t : FVec Ideal S2000x256 .f32) (ix2 p k)
      = (V c main_arg2 : FVec Ideal S500000x256 .f32) (ix2 (⟨t.val * 2000 + p.val, hP⟩ : Fin 500000) k) := by
  obtain ⟨-, -, e0, e1, -⟩ := idx_facts t
  unfold iblk0
  rw [View.read_apply]
  show V c main_arg2 (((cfg0.win 1).blk t).view.emb (ix2 p k)) = V c main_arg2 (ix2 (⟨t.val * 2000 + p.val, hP⟩ : Fin 500000) k)
  refine congrArg _ (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 256 + 1 * k.val = k.val; rw [e1]; omega

/-- The first weight half's block at every point is the whole array. -/
theorem whole_wa (c : Dev nD) (t : Fin cfg0.N) (k q : Fin 256) :
    (iblk0 V c 2 t : FVec Ideal S256x256 .f32) (ix2 k q) = (V c main_v11 : FVec Ideal S256x256 .f32) (ix2 k q) := by
  obtain ⟨-, -, -, -, e0, e1, -⟩ := idx_facts t
  unfold iblk0
  rw [View.read_apply]
  show V c main_v11 (((cfg0.win 2).blk t).view.emb (ix2 k q)) = V c main_v11 (ix2 k q)
  refine congrArg _ (funext fun a => Fin.ext ?_)
  match a with
  | ⟨0, _⟩ => show win0_2.index t (0 : Fin 2) * 256 + 1 * k.val = k.val; rw [e0]; omega
  | ⟨1, _⟩ => show win0_2.index t (1 : Fin 2) * 256 + 1 * q.val = q.val; rw [e1]; omega

/-- The second weight half's block at every point is the whole array. -/
theorem whole_wb (c : Dev nD) (t : Fin cfg0.N) (k q : Fin 256) :
    (iblk0 V c 3 t : FVec Ideal S256x256 .f32) (ix2 k q) = (V c main_v12 : FVec Ideal S256x256 .f32) (ix2 k q) := by
  obtain ⟨-, -, -, -, -, -, e0, e1, -⟩ := idx_facts t
  unfold iblk0
  rw [View.read_apply]
  show V c main_v12 (((cfg0.win 3).blk t).view.emb (ix2 k q)) = V c main_v12 (ix2 k q)
  refine congrArg _ (funext fun a => Fin.ext ?_)
  match a with
  | ⟨0, _⟩ => show win0_3.index t (0 : Fin 2) * 256 + 1 * k.val = k.val; rw [e0]; omega
  | ⟨1, _⟩ => show win0_3.index t (1 : Fin 2) * 256 + 1 * q.val = q.val; rw [e1]; omega

/-- The bias row's block at every point is the whole row. -/
theorem whole_bias (c : Dev nD) (t : Fin cfg0.N) (q : Fin 256) :
    (iblk0 V c 4 t : FVec Ideal S1x256 .f32) (ix2 (0 : Fin 1) q) = (V c main_v13 : FVec Ideal S1x256 .f32) (ix2 (0 : Fin 1) q) := by
  obtain ⟨-, -, -, -, -, -, -, -, e0, e1, -⟩ := idx_facts t
  unfold iblk0
  rw [View.read_apply]
  show V c main_v13 (((cfg0.win 4).blk t).view.emb (ix2 (0 : Fin 1) q)) = V c main_v13 (ix2 (0 : Fin 1) q)
  refine congrArg _ (funext fun a => Fin.ext ?_)
  match a with
  | ⟨0, _⟩ => show win0_4.index t (0 : Fin 2) * 1 + 1 * 0 = 0; rw [e0]
  | ⟨1, _⟩ => show win0_4.index t (1 : Fin 2) * 256 + 1 * q.val = q.val; rw [e1]; omega

/-- What point t writes back is rows 2000·t … 2000·t + 1999 of the layer of the whole arrays. -/
theorem flushed_eq (c : Dev nD) (t : Fin cfg0.N) :
    (dat0 V c).flushed 5 t = ((cfg0.win 5).blk t).view.read (Elt Ideal) (whole V c) := by
  show (cfg0.win 5).cut (grid0.coords t) ((dat0 V c).after 5 t) = _
  rw [after0_5]
  unfold out0_5
  rw [View.canon_unit_zero hz]
  simp only [View.ld_unit_zero (S := S2000x256) hz, View.ld_unit_zero (S := S256x256) hz, View.ld_unit_zero (S := S1x256) hz]
  rw [Cert.KernelIdeal.Tile.k0_pay1_eq]
  obtain ⟨-, -, -, -, -, -, -, -, -, -, e0, e1⟩ := idx_facts t
  funext y
  obtain ⟨p, q, rfl⟩ : ∃ (p : Fin 2000) (q : Fin 256), y = ix2 p q := ⟨y 0, y 1, eq_ix2 y⟩
  have hN : cfg0.N = 250 := N_0
  have hP : t.val * 2000 + p.val < 500000 := by have := t.isLt; omega
  have hemb : ((cfg0.win 5).blk t).view.emb (ix2 p q) = ix2 (⟨t.val * 2000 + p.val, hP⟩ : Fin 500000) q := by
    funext a; apply Fin.ext
    match a with
    | ⟨0, _⟩ => show win0_5.index t (0 : Fin 2) * 2000 + 1 * p.val = t.val * 2000 + p.val; rw [e0]; omega
    | ⟨1, _⟩ => show win0_5.index t (1 : Fin 2) * 256 + 1 * q.val = q.val; rw [e1]; omega
  show Cert.Layer.layer (R := 2000) (iblk0 V c 0 t) (iblk0 V c 1 t) (iblk0 V c 2 t) (iblk0 V c 3 t) (iblk0 V c 4 t) (ix2 p q)
      = whole V c (((cfg0.win 5).blk t).view.emb (ix2 p q))
  rw [hemb, Cert.Layer.layer_apply]
  refine Eq.trans ?_ (Cert.Layer.layer_apply (R := 500000) _ _ _ _ _ ⟨t.val * 2000 + p.val, hP⟩ q).symm
  refine congrArg₂ max (congrArg₂ (· + ·) (congrArg₂ (· + ·)
    (Finset.sum_congr rfl fun k _ => congrArg₂ (· * ·) (rows_a V c t p k hP) (whole_wa V c t k q))
    (Finset.sum_congr rfl fun k _ => congrArg₂ (· * ·) (rows_b V c t p k hP) (whole_wb V c t k q)))
    (whole_bias V c t q)) rfl

/-- An index of the output array is in point t's block iff each coordinate is in the block's range on its axis. -/
theorem mem_blk (t : Fin cfg0.N) (i : S500000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v14).slice (win0_5.rect t)).set ↔ _
  rw [View.set_slice_whole, Rect.mem_set_unit]
  exact Iff.rfl

/-- Every index of the output array is in the block of the point its row falls in. -/
theorem cover (i : S500000x256.Idx) : ∃ t : Fin cfg0.N, (cfg0.win 5).flush t = true ∧ i ∈ ((cfg0.win 5).blk t).view.set := by
  have hN : cfg0.N = 250 := N_0
  have hi0 : (i 0).val < 500000 := (i 0).isLt
  have hi1 : (i 1).val < 256 := (i 1).isLt
  have ht : (i 0).val / 2000 < cfg0.N := by rw [hN]; omega
  refine ⟨⟨(i 0).val / 2000, ht⟩, flush0_5 _, ?_⟩
  obtain ⟨-, -, -, -, -, -, -, -, -, -, e0, e1⟩ := idx_facts ⟨(i 0).val / 2000, ht⟩
  rw [mem_blk]
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_5.index ⟨(i 0).val / 2000, ht⟩ (1 : Fin 2) * 256 ≤ (i 1).val ∧ (i 1).val < win0_5.index ⟨(i 0).val / 2000, ht⟩ (1 : Fin 2) * 256 + 256
    rw [e1]
    omega

/-- The output array after the run is the layer of the whole arrays the kernel finds on entry. -/
theorem final (c : Dev nD) : (dat0 V c).arrAt 5 cfg0.N = whole V c :=
  (dat0 V c).arrAt_eq_of_cover 5 (whole V c) (fun t _ => flushed_eq V c t) cover

end Cert.KernelIdeal.Edge

end
-- ==== Proof.NodeBlocks.lean ====
/-
  The second tiled kernel's output array after its run, as one function of the arrays the kernel finds on entry.

  The grid has 25 points. Point t reads rows 2000·t … 2000·t + 1999 of its two row-indexed operands, the whole of each
  half of the weight array and the whole bias row, and writes back rows 2000·t … 2000·t + 1999 of the output. What
  it writes back is the layer of LayerSpec on those tiles (TileBody), and the layer's entry at a row depends only on
  that row of the operands, so the tile written back is the same rows of the layer of the whole arrays. The 25
  row ranges cover all 50000 rows (row i lies in the range of point i / 2000), so the output array ends holding the
  layer of the whole arrays.
-/
import proofs.«133268_j17806934409781_2_alg».proof.Proof.Gen.KernelIdeal.Frame
import proofs.«133268_j17806934409781_2_alg».proof.Proof.TileBody
import Idealize.ShloMosaic.Lib.Pipeline.Value

set_option maxRecDepth 16384

noncomputable section

open scoped BigOperators

namespace Cert.KernelIdeal.Node

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the row-indexed windows and the output are at block row t and
    block column 0, the weights and the bias at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The output array's contents after the run: the layer of the whole arrays the kernel finds on entry. -/
abbrev whole (c : Dev nD) : FVec Ideal S50000x256 .f32 :=
  Cert.Layer.layer (R := 50000) (V c main_arg0 : FVec Ideal S50000x256 .f32) (V c main_v26 : FVec Ideal S50000x256 .f32)
    (V c main_v27 : FVec Ideal S256x256 .f32) (V c main_v28 : FVec Ideal S256x256 .f32) (V c main_v29 : FVec Ideal S1x256 .f32)

/-- Row p of the first operand's tile at point t is row 2000·t + p of the array. -/
theorem rows_a (c : Dev nD) (t : Fin cfg1.N) (p : Fin 2000) (k : Fin 256) (hP : t.val * 2000 + p.val < 50000) :
    (iblk1 V c 0 t : FVec Ideal S2000x256 .f32) (ix2 p k)
      = (V c main_arg0 : FVec Ideal S50000x256 .f32) (ix2 (⟨t.val * 2000 + p.val, hP⟩ : Fin 50000) k) := by
  obtain ⟨e0, e1, -⟩ := idx_facts t
  unfold iblk1
  rw [View.read_apply]
  show V c main_arg0 (((cfg1.win 0).blk t).view.emb (ix2 p k)) = V c main_arg0 (ix2 (⟨t.val * 2000 + p.val, hP⟩ : Fin 50000) k)
  refine congrArg _ (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 256 + 1 * k.val = k.val; rw [e1]; omega

/-- Row p of the second operand's tile at point t is row 2000·t + p of the array. -/
theorem rows_b (c : Dev nD) (t : Fin cfg1.N) (p : Fin 2000) (k : Fin 256) (hP : t.val * 2000 + p.val < 50000) :
    (iblk1 V c 1 t : FVec Ideal S2000x256 .f32) (ix2 p k)
      = (V c main_v26 : FVec Ideal S50000x256 .f32) (ix2 (⟨t.val * 2000 + p.val, hP⟩ : Fin 50000) k) := by
  obtain ⟨-, -, e0, e1, -⟩ := idx_facts t
  unfold iblk1
  rw [View.read_apply]
  show V c main_v26 (((cfg1.win 1).blk t).view.emb (ix2 p k)) = V c main_v26 (ix2 (⟨t.val * 2000 + p.val, hP⟩ : Fin 50000) k)
  refine congrArg _ (funext fun a => Fin.ext ?_)
  match a with
  | ⟨0, _⟩ => show win1_1.index t (0 : Fin 2) * 2000 + 1 * p.val = t.val * 2000 + p.val; rw [e0]; omega
  | ⟨1, _⟩ => show win1_1.index t (1 : Fin 2) * 256 + 1 * k.val = k.val; rw [e1]; omega

/-- The first weight half's block at every point is the whole array. -/
theorem whole_wa (c : Dev nD) (t : Fin cfg1.N) (k q : Fin 256) :
    (iblk1 V c 2 t : FVec Ideal S256x256 .f32) (ix2 k q) = (V c main_v27 : FVec Ideal S256x256 .f32) (ix2 k q) := by
  obtain ⟨-, -, -, -, e0, e1, -⟩ := idx_facts t
  unfold iblk1
  rw [View.read_apply]
  show V c main_v27 (((cfg1.win 2).blk t).view.emb (ix2 k q)) = V c main_v27 (ix2 k q)
  refine congrArg _ (funext fun a => Fin.ext ?_)
  match a with
  | ⟨0, _⟩ => show win1_2.index t (0 : Fin 2) * 256 + 1 * k.val = k.val; rw [e0]; omega
  | ⟨1, _⟩ => show win1_2.index t (1 : Fin 2) * 256 + 1 * q.val = q.val; rw [e1]; omega

/-- The second weight half's block at every point is the whole array. -/
theorem whole_wb (c : Dev nD) (t : Fin cfg1.N) (k q : Fin 256) :
    (iblk1 V c 3 t : FVec Ideal S256x256 .f32) (ix2 k q) = (V c main_v28 : FVec Ideal S256x256 .f32) (ix2 k q) := by
  obtain ⟨-, -, -, -, -, -, e0, e1, -⟩ := idx_facts t
  unfold iblk1
  rw [View.read_apply]
  show V c main_v28 (((cfg1.win 3).blk t).view.emb (ix2 k q)) = V c main_v28 (ix2 k q)
  refine congrArg _ (funext fun a => Fin.ext ?_)
  match a with
  | ⟨0, _⟩ => show win1_3.index t (0 : Fin 2) * 256 + 1 * k.val = k.val; rw [e0]; omega
  | ⟨1, _⟩ => show win1_3.index t (1 : Fin 2) * 256 + 1 * q.val = q.val; rw [e1]; omega

/-- The bias row's block at every point is the whole row. -/
theorem whole_bias (c : Dev nD) (t : Fin cfg1.N) (q : Fin 256) :
    (iblk1 V c 4 t : FVec Ideal S1x256 .f32) (ix2 (0 : Fin 1) q) = (V c main_v29 : FVec Ideal S1x256 .f32) (ix2 (0 : Fin 1) q) := by
  obtain ⟨-, -, -, -, -, -, -, -, e0, e1, -⟩ := idx_facts t
  unfold iblk1
  rw [View.read_apply]
  show V c main_v29 (((cfg1.win 4).blk t).view.emb (ix2 (0 : Fin 1) q)) = V c main_v29 (ix2 (0 : Fin 1) q)
  refine congrArg _ (funext fun a => Fin.ext ?_)
  match a with
  | ⟨0, _⟩ => show win1_4.index t (0 : Fin 2) * 1 + 1 * 0 = 0; rw [e0]
  | ⟨1, _⟩ => show win1_4.index t (1 : Fin 2) * 256 + 1 * q.val = q.val; rw [e1]; omega

/-- What point t writes back is rows 2000·t … 2000·t + 1999 of the layer of the whole arrays. -/
theorem flushed_eq (c : Dev nD) (t : Fin cfg1.N) :
    (dat1 V c).flushed 5 t = ((cfg1.win 5).blk t).view.read (Elt Ideal) (whole V c) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x256) hz, View.ld_unit_zero (S := S1x256) hz]
  rw [Cert.KernelIdeal.Tile.k1_pay1_eq]
  obtain ⟨-, -, -, -, -, -, -, -, -, -, e0, e1⟩ := idx_facts t
  funext y
  obtain ⟨p, q, rfl⟩ : ∃ (p : Fin 2000) (q : Fin 256), y = ix2 p q := ⟨y 0, y 1, eq_ix2 y⟩
  have hN : cfg1.N = 25 := N_1
  have hP : t.val * 2000 + p.val < 50000 := by have := t.isLt; omega
  have hemb : ((cfg1.win 5).blk t).view.emb (ix2 p q) = ix2 (⟨t.val * 2000 + p.val, hP⟩ : Fin 50000) q := by
    funext a; apply Fin.ext
    match a with
    | ⟨0, _⟩ => show win1_5.index t (0 : Fin 2) * 2000 + 1 * p.val = t.val * 2000 + p.val; rw [e0]; omega
    | ⟨1, _⟩ => show win1_5.index t (1 : Fin 2) * 256 + 1 * q.val = q.val; rw [e1]; omega
  show Cert.Layer.layer (R := 2000) (iblk1 V c 0 t) (iblk1 V c 1 t) (iblk1 V c 2 t) (iblk1 V c 3 t) (iblk1 V c 4 t) (ix2 p q)
      = whole V c (((cfg1.win 5).blk t).view.emb (ix2 p q))
  rw [hemb, Cert.Layer.layer_apply]
  refine Eq.trans ?_ (Cert.Layer.layer_apply (R := 50000) _ _ _ _ _ ⟨t.val * 2000 + p.val, hP⟩ q).symm
  refine congrArg₂ max (congrArg₂ (· + ·) (congrArg₂ (· + ·)
    (Finset.sum_congr rfl fun k _ => congrArg₂ (· * ·) (rows_a V c t p k hP) (whole_wa V c t k q))
    (Finset.sum_congr rfl fun k _ => congrArg₂ (· * ·) (rows_b V c t p k hP) (whole_wb V c t k q)))
    (whole_bias V c t q)) rfl

/-- An index of the output array is in point t's block iff each coordinate is in the block's range on its axis. -/
theorem mem_blk (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v30).slice (win1_5.rect t)).set ↔ _
  rw [View.set_slice_whole, Rect.mem_set_unit]
  exact Iff.rfl

/-- Every index of the output array is in the block of the point its row falls in. -/
theorem cover (i : S50000x256.Idx) : ∃ t : Fin cfg1.N, (cfg1.win 5).flush t = true ∧ i ∈ ((cfg1.win 5).blk t).view.set := by
  have hN : cfg1.N = 25 := N_1
  have hi0 : (i 0).val < 50000 := (i 0).isLt
  have hi1 : (i 1).val < 256 := (i 1).isLt
  have ht : (i 0).val / 2000 < cfg1.N := by rw [hN]; omega
  refine ⟨⟨(i 0).val / 2000, ht⟩, flush1_5 _, ?_⟩
  obtain ⟨-, -, -, -, -, -, -, -, -, -, e0, e1⟩ := idx_facts ⟨(i 0).val / 2000, ht⟩
  rw [mem_blk]
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win1_5.index ⟨(i 0).val / 2000, ht⟩ (1 : Fin 2) * 256 ≤ (i 1).val ∧ (i 1).val < win1_5.index ⟨(i 0).val / 2000, ht⟩ (1 : Fin 2) * 256 + 256
    rw [e1]
    omega

/-- The output array after the run is the layer of the whole arrays the kernel finds on entry. -/
theorem final (c : Dev nD) : (dat1 V c).arrAt 5 cfg1.N = whole V c :=
  (dat1 V c).arrAt_eq_of_cover 5 (whole V c) (fun t _ => flushed_eq V c t) cover

end Cert.KernelIdeal.Node

end
-- ==== Proof.ResultSpec.lean ====
/-
  The network as one function of its arguments, over the printed host operations and the layer of LayerSpec.

  Rows of the node array are gathered by the first row of the edge list (a negative entry wrapped once by the
  number of nodes); the first layer runs on the gathered rows and the edge attributes over the two halves of the first
  weight array; the layer's rows are summed into the nodes the second row of the edge list names, the rows summed
  into each node are counted in the same way, and each node's sum is divided by its count clamped below at one; the
  second layer runs on the node array and these means over the two halves of the second weight array.
-/
import proofs.«133268_j17806934409781_2_alg».proof.KernelIdeal
import proofs.«133268_j17806934409781_2_alg».proof.Proof.Gen.KernelIdeal
import proofs.«133268_j17806934409781_2_alg».proof.Proof.LayerSpec

noncomputable section

namespace Cert.KernelIdeal.Whole

open Idealize.ShloMosaic Cert.KernelIdeal Cert.KernelIdeal.Facts₀

/-- A row of the edge list as a vector of 500000 node numbers. -/
def edgeRow0 (ei : IVec S2x500000 32) : IVec S500000 32 :=
  shapeCast S500000 (extractStridedSlice S1x500000 ![0, 0] ei slices_S2x500000_S1x500000_0_0) shapeCasts_S1x500000_S500000
def edgeRow1 (ei : IVec S2x500000 32) : IVec S500000 32 :=
  shapeCast S500000 (extractStridedSlice S1x500000 ![1, 0] ei slices_S2x500000_S1x500000_1_0) shapeCasts_S1x500000_S500000

/-- The rows of the node array the first row of the edge list names, a negative number wrapped once. -/
def gathered (x : FVec Ideal S50000x256 .f32) (ei : IVec S2x500000 32) : FVec Ideal S500000x256 .f32 :=
  Host.gather gather_S50000x256_S500000x1_S500000x256_1_0_n_n_0_1_1256 x
    (broadcastInDim S500000x1 ![0] bcast_S500000_S500000x1_0
      (select (cmpi .slt (edgeRow0 ei) (broadcastInDim S500000 ![] bcast_S_S500000 (constantI S_ 32 0#32)))
        (addi (edgeRow0 ei) (broadcastInDim S500000 ![] bcast_S_S500000 (constantI S_ 32 50000#32))) (edgeRow0 ei)))

/-- Each node's mean of the rows of `h` that the vector `col` sends to it: the rows summed into their nodes, divided
    by the number of rows summed there clamped below at one. -/
def nodeMean (h : FVec Ideal S500000x256 .f32) (col : IVec S500000 32) : FVec Ideal S50000x256 .f32 :=
  Host.divf
    (Host.scatterAdd scatter_S50000x256_S500000x1_S500000x256_1_0_0_1
      (broadcastInDim S50000x256 ![] bcast_S_S50000x256 (constant (F := Ideal) S_ .f32 0x00000000#32))
      (broadcastInDim S500000x1 ![0] bcast_S500000_S500000x1_0 col) h)
    (broadcastInDim S50000x256 ![0, 1] bcast_S50000x1_S50000x256_0_1
      (broadcastInDim S50000x1 ![0] bcast_S50000_S50000x1_0
        (maximumf
          (Host.scatterAdd scatter_S50000_S500000x1_S500000_n_0_0_1
            (broadcastInDim S50000 ![] bcast_S_S50000 (constant (F := Ideal) S_ .f32 0x00000000#32))
            (broadcastInDim S500000x1 ![0] bcast_S500000_S500000x1_0 col)
            (broadcastInDim S500000 ![] bcast_S_S500000 (constant (F := Ideal) S_ .f32 0x3F800000#32)))
          (broadcastInDim S50000 ![] bcast_S_S50000 (constant (F := Ideal) S_ .f32 0x3F800000#32)))))

/-- The two halves of a weight array and a bias vector as a one-row array. -/
def upper (w : FVec Ideal S512x256 .f32) : FVec Ideal S256x256 .f32 := extractStridedSlice S256x256 ![0, 0] w slices_S512x256_S256x256_0_0
def lower (w : FVec Ideal S512x256 .f32) : FVec Ideal S256x256 .f32 := extractStridedSlice S256x256 ![256, 0] w slices_S512x256_S256x256_256_0
def asRow (b : FVec Ideal S256 .f32) : FVec Ideal S1x256 .f32 := shapeCast S1x256 b shapeCasts_S256_S1x256

/-- The first layer's output: one row per edge. -/
def edgeRows (x : FVec Ideal S50000x256 .f32) (ei : IVec S2x500000 32) (ea : FVec Ideal S500000x256 .f32)
    (w1 : FVec Ideal S512x256 .f32) (b1 : FVec Ideal S256 .f32) : FVec Ideal S500000x256 .f32 :=
  Cert.Layer.layer (R := 500000) (gathered x ei) ea (upper w1) (lower w1) (asRow b1)

/-- The program's result as a function of its arguments. -/
def result (x : FVec Ideal S50000x256 .f32) (ei : IVec S2x500000 32) (ea : FVec Ideal S500000x256 .f32)
    (w1 : FVec Ideal S512x256 .f32) (b1 : FVec Ideal S256 .f32) (w2 : FVec Ideal S512x256 .f32) (b2 : FVec Ideal S256 .f32) :
    FVec Ideal S50000x256 .f32 :=
  Cert.Layer.layer (R := 50000) x (nodeMean (edgeRows x ei ea w1 b1) (edgeRow1 ei)) (upper w2) (lower w2) (asRow b2)

end Cert.KernelIdeal.Whole

end
-- ==== Proof.KernelValue.lean ====
/-
  The idealized kernel program's result buffer at the last boundary is the network's function (ResultSpec) of the
  launch contents of the arguments.

  Read off the run: the result buffer holds the second kernel's output array; that is the layer of the arrays the
  second kernel finds on entry (NodeBlocks), which the host operations before it computed from the first kernel's
  output array and the arguments; the first kernel's output array is the layer of the arrays it finds on entry
  (EdgeBlocks), which the host operations before it computed from the arguments. A buffer no operation of a stretch
  assigns, and no kernel writes, keeps its contents across it.
-/
import proofs.«133268_j17806934409781_2_alg».proof.Proof.Gen.KernelIdeal.Frame
import proofs.«133268_j17806934409781_2_alg».proof.Proof.EdgeBlocks
import proofs.«133268_j17806934409781_2_alg».proof.Proof.NodeBlocks
import proofs.«133268_j17806934409781_2_alg».proof.Proof.ResultSpec
import Idealize.ShloMosaic.Lib.StableHlo.Run

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## The arrays the first kernel finds on entry -/

theorem entry0_rows (c : Dev nD) : V1 m ρ c main_v10 = gathered (m ((c : Thread nD τ).loc main_arg0)) (m ((c : Thread nD τ).loc main_arg1)) := by
  show StableHlo.after hostOps0 (W0 m ρ c) (Proc.devRef .tc main_v10) = _
  after_results
  rfl
theorem entry0_attr (c : Dev nD) : V1 m ρ c main_arg2 = m ((c : Thread nD τ).loc main_arg2) := by
  show StableHlo.after hostOps0 (W0 m ρ c) (Proc.devRef .tc main_arg2) = _
  after_results
theorem entry0_upper (c : Dev nD) : V1 m ρ c main_v11 = upper (m ((c : Thread nD τ).loc main_arg5)) := by
  show StableHlo.after hostOps0 (W0 m ρ c) (Proc.devRef .tc main_v11) = _
  after_results
  rfl
theorem entry0_lower (c : Dev nD) : V1 m ρ c main_v12 = lower (m ((c : Thread nD τ).loc main_arg5)) := by
  show StableHlo.after hostOps0 (W0 m ρ c) (Proc.devRef .tc main_v12) = _
  after_results
  rfl
theorem entry0_bias (c : Dev nD) : V1 m ρ c main_v13 = asRow (m ((c : Thread nD τ).loc main_arg6)) := by
  show StableHlo.after hostOps0 (W0 m ρ c) (Proc.devRef .tc main_v13) = _
  after_results
  rfl

/-- The first kernel's output array at its exit. -/
theorem edge_out (c : Dev nD) : W2 m ρ c (Proc.devRef .tc main_v14)
    = edgeRows (m ((c : Thread nD τ).loc main_arg0)) (m ((c : Thread nD τ).loc main_arg1)) (m ((c : Thread nD τ).loc main_arg2))
        (m ((c : Thread nD τ).loc main_arg5)) (m ((c : Thread nD τ).loc main_arg6)) := by
  refine (W2_arr m ρ c 5).trans ?_
  rw [Cert.KernelIdeal.Edge.final (V1 m ρ) c]
  unfold Cert.KernelIdeal.Edge.whole edgeRows
  rw [entry0_rows, entry0_attr, entry0_upper, entry0_lower, entry0_bias]

/-! ## What the first kernel leaves alone -/

theorem kept_col (c : Dev nD) : W2 m ρ c (Proc.devRef .tc main_v3) = edgeRow1 (m ((c : Thread nD τ).loc main_arg1)) := by
  refine (W2_of_ne m ρ c main_v3 (by decide)).trans ?_
  show StableHlo.after hostOps0 (W0 m ρ c) (Proc.devRef .tc main_v3) = _
  after_results
  rfl
theorem kept_x (c : Dev nD) : W2 m ρ c (Proc.devRef .tc main_arg0) = m ((c : Thread nD τ).loc main_arg0) := by
  refine (W2_of_ne m ρ c main_arg0 (by decide)).trans ?_
  show StableHlo.after hostOps0 (W0 m ρ c) (Proc.devRef .tc main_arg0) = _
  after_results
theorem kept_w2 (c : Dev nD) : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results
theorem kept_b2 (c : Dev nD) : W2 m ρ c (Proc.devRef .tc main_arg8) = m ((c : Thread nD τ).loc main_arg8) := by
  refine (W2_of_ne m ρ c main_arg8 (by decide)).trans ?_
  show StableHlo.after hostOps0 (W0 m ρ c) (Proc.devRef .tc main_arg8) = _
  after_results

/-! ## The arrays the second kernel finds on entry -/

theorem entry1_x (c : Dev nD) : V3 m ρ c main_arg0 = m ((c : Thread nD τ).loc main_arg0) := by
  show StableHlo.after hostOps1 (W2 m ρ c) (Proc.devRef .tc main_arg0) = _
  after_results
  exact kept_x m ρ c
theorem entry1_mean (c : Dev nD) : V3 m ρ c main_v26
    = nodeMean (W2 m ρ c (Proc.devRef .tc main_v14)) (W2 m ρ c (Proc.devRef .tc main_v3)) := by
  show StableHlo.after hostOps1 (W2 m ρ c) (Proc.devRef .tc main_v26) = _
  after_results
  rfl
theorem entry1_upper (c : Dev nD) : V3 m ρ c main_v27 = upper (m ((c : Thread nD τ).loc main_arg7)) := by
  show StableHlo.after hostOps1 (W2 m ρ c) (Proc.devRef .tc main_v27) = _
  after_results
  rw [kept_w2]
  rfl
theorem entry1_lower (c : Dev nD) : V3 m ρ c main_v28 = lower (m ((c : Thread nD τ).loc main_arg7)) := by
  show StableHlo.after hostOps1 (W2 m ρ c) (Proc.devRef .tc main_v28) = _
  after_results
  rw [kept_w2]
  rfl
theorem entry1_bias (c : Dev nD) : V3 m ρ c main_v29 = asRow (m ((c : Thread nD τ).loc main_arg8)) := by
  show StableHlo.after hostOps1 (W2 m ρ c) (Proc.devRef .tc main_v29) = _
  after_results
  rw [kept_b2]
  rfl

/-- The result buffer at the last boundary is the program's result function of the launch contents of the arguments. -/
theorem last_boundary (c : Dev nD) : W4 m ρ c (Proc.devRef .tc main_v30)
    = result (m ((c : Thread nD τ).loc main_arg0)) (m ((c : Thread nD τ).loc main_arg1)) (m ((c : Thread nD τ).loc main_arg2))
        (m ((c : Thread nD τ).loc main_arg5)) (m ((c : Thread nD τ).loc main_arg6))
        (m ((c : Thread nD τ).loc main_arg7)) (m ((c : Thread nD τ).loc main_arg8)) := by
  refine (W4_arr m ρ c 5).trans ?_
  rw [Cert.KernelIdeal.Node.final (V3 m ρ) c]
  unfold Cert.KernelIdeal.Node.whole result
  rw [entry1_x, entry1_mean, entry1_upper, entry1_lower, entry1_bias, edge_out, kept_col]

end Cert.KernelIdeal.Whole

end
-- ==== Proof.Bridge.lean ====
/-
  The idealized reference computes the network's function (ResultSpec).

  The reference's host program is the same operations as the kernel program's host parts around two layers, each
  written as a concatenation, ONE product over 512 contracted coordinates, a broadcast bias and a maximum with zero.
  Each such layer is the layer of LayerSpec over the two halves of the weight array (`Layer.host_layer`: a sum over
  512 coordinates split in halves); everything else is the same operation applied to the same operands.
-/
import proofs.«133268_j17806934409781_2_alg».proof.Proof.Gen.ReferenceIdeal.Read
import proofs.«133268_j17806934409781_2_alg».proof.Proof.ResultSpec

noncomputable section

namespace Cert.ReferenceIdeal.Net

open Idealize.ShloMosaic Cert.ReferenceIdeal Cert.ReferenceIdeal.Read
open Cert.KernelIdeal.Whole

variable (x0 : (⟨S50000x256, .f32⟩ : BufTy).Contents (Elt Ideal)) (x1 : (⟨S2x500000, .i32⟩ : BufTy).Contents (Elt Ideal))
  (x2 : (⟨S500000x256, .f32⟩ : BufTy).Contents (Elt Ideal)) (x5 : (⟨S512x256, .f32⟩ : BufTy).Contents (Elt Ideal))
  (x6 : (⟨S256, .f32⟩ : BufTy).Contents (Elt Ideal)) (x7 : (⟨S512x256, .f32⟩ : BufTy).Contents (Elt Ideal))
  (x8 : (⟨S256, .f32⟩ : BufTy).Contents (Elt Ideal))

/-- The reference gathers the same rows. -/
theorem gather_eq : val_main_v10 (F := Ideal) x0 x1 = gathered x0 x1 := rfl

/-- The reference's first layer is the layer over the two halves of the first weight array. -/
theorem layer1_eq : val_main_v16 (F := Ideal) x0 x1 x2 x5 x6 = edgeRows x0 x1 x2 x5 x6 := by
  unfold val_main_v16 val_main_v15 val_main_v12 val_main_v11 val_main_v14 val_main_v13 val_main_call0_v0 val_main_call0_cst
  rw [gather_eq]
  exact Cert.Layer.host_layer (R := 500000) dot_S500000x512_S512x256_S500000x256_1_0_0_1_n_n rfl rfl rfl rfl rfl rfl
    Facts₀.concatenates_S500000x256_S500000x256_S500000x512_d1 Facts₀.bcast_S256_S1x256_1 Facts₀.bcast_S1x256_S500000x256_0_1
    Facts₀.bcast_S_S500000x256 Cert.KernelIdeal.Facts₀.slices_S512x256_S256x256_0_0 Cert.KernelIdeal.Facts₀.slices_S512x256_S256x256_256_0
    Cert.KernelIdeal.Facts₀.shapeCasts_S256_S1x256 (gathered x0 x1) x2 x5 x6

/-- The reference takes the same per-node means of whatever rows it is given. -/
theorem mean_eq (h : (⟨S500000x256, .f32⟩ : BufTy).Contents (Elt Ideal)) :
    Host.divf (Host.scatterAdd scatter_S50000x256_S500000x1_S500000x256_1_0_0_1 (val_main_v17 (F := Ideal)) (val_main_v18 (F := Ideal) x1) h)
        (val_main_v27 (F := Ideal) x1)
      = nodeMean h (edgeRow1 x1) := rfl

/-- The reference's second layer is the layer over the two halves of the second weight array: the whole reference
    is the network's function. -/
theorem result_eq : val_main_v34 (F := Ideal) x0 x1 x2 x5 x6 x7 x8 = result x0 x1 x2 x5 x6 x7 x8 := by
  unfold val_main_v34 val_main_v33 val_main_v30 val_main_v29 val_main_v32 val_main_v31 val_main_call1_v0 val_main_call1_cst
  have hmean : val_main_v28 (F := Ideal) x0 x1 x2 x5 x6 = nodeMean (edgeRows x0 x1 x2 x5 x6) (edgeRow1 x1) := by
    unfold val_main_v28 val_main_v19
    rw [layer1_eq]
    exact mean_eq x1 _
  rw [hmean]
  exact Cert.Layer.host_layer (R := 50000) dot_S50000x512_S512x256_S50000x256_1_0_0_1_n_n rfl rfl rfl rfl rfl rfl
    Facts₀.concatenates_S50000x256_S50000x256_S50000x512_d1 Facts₀.bcast_S256_S1x256_1 Facts₀.bcast_S1x256_S50000x256_0_1
    Facts₀.bcast_S_S50000x256 Cert.KernelIdeal.Facts₀.slices_S512x256_S256x256_0_0 Cert.KernelIdeal.Facts₀.slices_S512x256_S256x256_256_0
    Cert.KernelIdeal.Facts₀.shapeCasts_S256_S1x256 x0 (nodeMean (edgeRows x0 x1 x2 x5 x6) (edgeRow1 x1)) x7 x8

end Cert.ReferenceIdeal.Net

end
-- ==== Proof.lean ====
/-
  The certificate of the two-layer edge-to-node network: the tiled kernel program against its host reference.

  Both programs gather rows of the node array along the edges, run a layer on the gathered rows and the edge
  attributes, average the layer's rows into their destination nodes, and run a second layer on the node array and
  the averages. A layer joins two 256-column arrays side by side, multiplies by a 512 × 256 weight array, adds a bias
  and clamps below at zero. The kernel program computes each layer tile by tile (2000 rows at a time) as two
  products, one per half of the weight array, added; the reference computes it as one product over the 512 joined
  columns. On the extended reals the two are the same function, because a sum over 512 coordinates is the sum over
  the first 256 plus the sum over the last 256 (addition there is commutative and associative; no finiteness of the
  inputs is used), the rounding of the matrix operands to the narrower format is the identity, and a tile of a layer
  depends only on the same rows of its operands.

  Modules: LayerSpec (the layer and the split of the sum), TileBody (a kernel body computes the layer on its tiles),
  EdgeBlocks / NodeBlocks (each kernel's output array is the layer of the arrays it finds on entry), KernelRun (the
  run, with the result buffer named), ResultSpec (the network as one function), KernelValue (the kernel program's
  result is that function of its arguments), Bridge (so is the reference's).
-/
import proofs.«133268_j17806934409781_2_alg».proof.Defs
import proofs.«133268_j17806934409781_2_alg».proof.Proof.Gen.Kernel
import proofs.«133268_j17806934409781_2_alg».proof.Proof.Gen.Kernel.Skeleton
import proofs.«133268_j17806934409781_2_alg».proof.Proof.Gen.Kernel.Launch
import proofs.«133268_j17806934409781_2_alg».proof.Proof.Gen.Kernel.Points
import proofs.«133268_j17806934409781_2_alg».proof.Proof.Gen.Kernel.Frame
import proofs.«133268_j17806934409781_2_alg».proof.Proof.Gen.KernelIdeal
import proofs.«133268_j17806934409781_2_alg».proof.Proof.Gen.KernelIdeal.Skeleton
import proofs.«133268_j17806934409781_2_alg».proof.Proof.Gen.KernelIdeal.Launch
import proofs.«133268_j17806934409781_2_alg».proof.Proof.Gen.KernelIdeal.Points
import proofs.«133268_j17806934409781_2_alg».proof.Proof.Gen.KernelIdeal.Frame
import proofs.«133268_j17806934409781_2_alg».proof.Proof.Gen.ReferenceIdeal
import proofs.«133268_j17806934409781_2_alg».proof.Proof.Gen.Pre_finite_inputs
import proofs.«133268_j17806934409781_2_alg».proof.Proof.Gen.ReferenceIdeal.Run
import proofs.«133268_j17806934409781_2_alg».proof.Proof.Gen.ReferenceIdeal.Read
import proofs.«133268_j17806934409781_2_alg».proof.Proof.KernelRun
import proofs.«133268_j17806934409781_2_alg».proof.Proof.KernelValue
import proofs.«133268_j17806934409781_2_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the network's function of the arguments in their
    result buffers: the kernel program by its run read back (KernelValue), the reference by its run and the split of
    each layer's sum (Bridge). -/
theorem algebraic : Cert.algebraic_KernelIdeal_ReferenceIdeal := by
  intro m ρ m' ρ' _ hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Whole.last_boundary m ρ c), (h c).2⟩)
      (Cert.KernelIdeal.Hand.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v34_eq, Cert.ReferenceIdeal.Net.result_eq,
      (hagree c).1, (hagree c).2.1, (hagree c).2.2.1, (hagree c).2.2.2.2.2.1, (hagree c).2.2.2.2.2.2.1,
      (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
